-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S64 .f32) (main_arg7 : FVec F S128x64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x64 .f32) (main_arg6 : FVec F S64 .f32) (main_arg7 : FVec F S128x64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S5000x128 : Shape := ⟨2, ![5000, 128]⟩
abbrev S1x128 : Shape := ⟨2, ![1, 128]⟩
abbrev S50000x64 : Shape := ⟨2, ![50000, 64]⟩
abbrev S5000x64 : Shape := ⟨2, ![5000, 64]⟩
abbrev S1x64 : Shape := ⟨2, ![1, 64]⟩

abbrev nBuf : Space → Nat
  | .hbm => 58
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .f32⟩
  | .hbm, ⟨33, _⟩ => ⟨S_, .f32⟩
  | .hbm, ⟨34, _⟩ => ⟨S50000x128, .f32⟩
  | .hbm, ⟨35, _⟩ => ⟨S800000x1, .i32⟩
  | .hbm, ⟨36, _⟩ => ⟨S50000x128, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x128, .f32⟩
  | .hbm, ⟨50, _⟩ => ⟨S_, .f32⟩
  | .hbm, ⟨51, _⟩ => ⟨S50000x128, .f32⟩
  | .hbm, ⟨52, _⟩ => ⟨S800000x1, .i32⟩
  | .hbm, ⟨53, _⟩ => ⟨S50000x128, .f32⟩
  | .hbm, ⟨54, _⟩ => ⟨S50000x1, .f32⟩
  | .hbm, ⟨55, _⟩ => ⟨S50000x128, .f32⟩
  | .hbm, ⟨56, _⟩ => ⟨S50000x128, .f32⟩
  | .hbm, ⟨57, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x64, .f32⟩
  | .local _ .vmem, ⟨14, _⟩ => ⟨S64, .f32⟩
  | .local _ .vmem, ⟨15, _⟩ => ⟨S128x64, .f32⟩
  | .local _ .vmem, ⟨16, _⟩ => ⟨S5000x64, .f32⟩
  | .local _ .vmem, ⟨17, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S50000x64 : Shape := ⟨2, ![50000, 64]⟩
abbrev S1x64 : Shape := ⟨2, ![1, 64]⟩

abbrev nBuf : Space → Nat
  | .hbm => 77
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x128, .f32⟩
  | .hbm, ⟨55, _⟩ => ⟨S_, .f32⟩
  | .hbm, ⟨56, _⟩ => ⟨S50000x128, .f32⟩
  | .hbm, ⟨57, _⟩ => ⟨S800000x1, .i32⟩
  | .hbm, ⟨58, _⟩ => ⟨S50000x128, .f32⟩
  | .hbm, ⟨59, _⟩ => ⟨S_, .f32⟩
  | .hbm, ⟨60, _⟩ => ⟨S800000, .f32⟩
  | .hbm, ⟨61, _⟩ => ⟨S_, .f32⟩
  | .hbm, ⟨62, _⟩ => ⟨S50000, .f32⟩
  | .hbm, ⟨63, _⟩ => ⟨S800000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x128, .f32⟩
  | .hbm, ⟨70, _⟩ => ⟨S50000x128, .f32⟩
  | .hbm, ⟨71, _⟩ => ⟨S50000x64, .f32⟩
  | .hbm, ⟨72, _⟩ => ⟨S1x64, .f32⟩
  | .hbm, ⟨73, _⟩ => ⟨S50000x64, .f32⟩
  | .hbm, ⟨74, _⟩ => ⟨S50000x64, .f32⟩
  | .hbm, ⟨75, _⟩ => ⟨S50000x64, .f32⟩
  | .hbm, ⟨76, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.LibRunBoth.lean ====
/-
  Two facts about every weakly fair execution of one program from one state hold together.

  `θ_run defs p s Q` says: every weakly fair execution of `p` from the memory `s` is finite, never stuck, and ends in a
  final state satisfying `Q`. Termination and freedom from deadlock do not mention `Q`, and a final state reached
  satisfies each postcondition that every final state reached satisfies. So from the same program and the same state,
  `Q` and `Q'` may be concluded together (`θ_run_both`). This lets a value statement about a program be proved with
  only the NEW conjunct in its postcondition, and joined afterwards to a frame statement already in hand.
-/
import Idealize.ShloMosaic.Machine.Run

namespace Idealize.ShloMosaic

open Idealize.SL.Sem

variable {nD : Nat} {τ : Topo} {sig : RefSig} {Val : EltTy → Type} {Λ : Labels}

/-- Every weakly fair execution from `s₀` ends satisfying `Q`, and every one ends satisfying `Q'`: every one ends
    satisfying both. -/
theorem MeshRun.both {defs : Defs nD τ sig Val Λ} {Q Q' : MemSt nD τ sig Val → Prop} {s₀ : RunSt nD τ sig Val Λ}
    (h : MeshRun defs Q s₀) (h' : MeshRun defs Q' s₀) : MeshRun defs (fun m => Q m ∧ Q' m) s₀ :=
  ⟨fun t ht hf => ⟨h.post t ht hf, h'.post t ht hf⟩, h.progress, h.fair⟩

/-- The same for the observation of a loaded program. -/
theorem θ_run_both (defs : Defs nD τ sig Val Λ) (p : (c : Thread nD τ) → Prog (TpuEff nD τ sig Val Λ c.2) PUnit)
    (s : MemSt nD τ sig Val) (Q Q' : PUnit × MemSt nD τ sig Val → Prop)
    (h : θ_run defs p s Q) (h' : θ_run defs p s Q') : θ_run defs p s (fun r => Q r ∧ Q' r) :=
  MeshRun.both (Q := fun m' => Q (⟨⟩, m')) (Q' := fun m' => Q' (⟨⟩, m')) h h'

end Idealize.ShloMosaic
-- ==== Proof.KernelRun.lean ====
/-
  The idealized kernel's run with its result buffer named.

  The program is four segments: host operations, the first dense layer's pallas_call, host operations, the second
  dense layer's pallas_call. The buffer contents at the four boundaries are a fold from the launch memory: a host
  stretch applies its operations, a pallas_call leaves each of its arrays at what its write-backs fold to and every
  other buffer as entered. Every weakly fair execution ends with each unscoped buffer at the last boundary's contents;
  read at the result buffer, that is what the second pallas_call's write-backs leave in its output array.
-/
import proofs.«119239_j81011673137268_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends with the result buffer at the last boundary's contents. -/
theorem run_result : θ_run defs (onTc (τ := τ) (main (F := F))) ⟨m, fun _ => 0, ρ⟩ (fun r => ∀ c : Dev nD,
      r.2.mem ((c.tc : Thread nD τ).loc main_v39) = W4 m ρ c (Proc.devRef .tc main_v39)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c _ (mem_uc main_v39 (by decide)))

/-- The result buffer is the second pallas_call's output array: it ends at what that call's write-backs fold to. -/
theorem result_eq (c : Dev nD) :
    W4 m ρ c (Proc.devRef .tc main_v39) = (dat1 (V3 m ρ) c).arrAt 5 cfg1.N :=
  W4_arr m ρ c 5

end Cert.KernelIdeal.RunValue

end
-- ==== Proof.LibColumnBlocks.lean ====
/-
  Matrices built from column blocks, and plain matrix products, read at coordinates.

  A concatenation of matrices of equal height along the column axis reads, at `(a, b)`, the block that column `b`
  falls in, at `(a, b - the widths before it)`: stated for two blocks and for four. A matrix product with one
  contracted axis — the left operand's columns against the right operand's rows, no batch axis — reads at `(a, b)`, over
  the extended reals, the sum over `k` of `lhs (a, k) · rhs (k, b)`: stated for the accumulating product into a
  zero accumulator and for the host's product. The dimension record's two non-contracted coordinates are taken as
  hypotheses; at a literal record they hold by computation.
-/
import Idealize.ShloMosaic.PureOps.Ideal.Laws
import Idealize.ShloMosaic.Lib.ValueIdx
import Idealize.ShloMosaic.Lib.Pipeline.Value

noncomputable section

namespace Cert.LibColumnBlocks

open Idealize.ShloMosaic Idealize.ShloMosaic.ValueIdx

variable {α : Type}

/-! ## Two column blocks -/

/-- `[x₁ | x₂]` at a column inside the first block. -/
theorem cat2_left {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : b.val < B1) :
    concatenate ⟨2, ![A, B]⟩ 1 [⟨⟨2, ![A, B1]⟩, x₁⟩, ⟨⟨2, ![A, B2]⟩, x₂⟩] h (ix2 a b) = x₁ (ix2 a ⟨b.val, hb⟩) :=
  concatenate_pair_apply_left 1 x₁ x₂ h (ix2 a b) rfl (ix2 a ⟨b.val, hb⟩) fun d => by
    match d with
    | ⟨0, _⟩ => rfl
    | ⟨1, _⟩ => rfl

/-- `[x₁ | x₂]` at a column past the first block. -/
theorem cat2_right {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : B1 ≤ b.val)
    (hb' : b.val - B1 < B2) :
    concatenate ⟨2, ![A, B]⟩ 1 [⟨⟨2, ![A, B1]⟩, x₁⟩, ⟨⟨2, ![A, B2]⟩, x₂⟩] h (ix2 a b) = x₂ (ix2 a ⟨b.val - B1, hb'⟩) :=
  concatenate_pair_apply_right 1 x₁ x₂ h (ix2 a b) rfl rfl (ix2 a ⟨b.val - B1, hb'⟩)
    (fun d hd => by
      match d with
      | ⟨0, _⟩ => rfl
      | ⟨1, _⟩ => exact absurd rfl hd)
    (by show (b.val - B1) + B1 = b.val; omega)

/-! ## Four column blocks -/

section Four
variable {A w0 w1 w2 w3 B : ℕ}
  (x0 : (⟨2, ![A, w0]⟩ : Shape).Idx → α) (x1 : (⟨2, ![A, w1]⟩ : Shape).Idx → α)
  (x2 : (⟨2, ![A, w2]⟩ : Shape).Idx → α) (x3 : (⟨2, ![A, w3]⟩ : Shape).Idx → α)
  (h : Shape.Concatenates [⟨2, ![A, w0]⟩, ⟨2, ![A, w1]⟩, ⟨2, ![A, w2]⟩, ⟨2, ![A, w3]⟩] ⟨2, ![A, B]⟩ 1)
  (a : Fin A) (b : Fin B)

/-- `[x0 | x1 | x2 | x3]` at a column of the first block. -/
theorem cat4_0 (hb : b.val < w0) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x0 (ix2 a ⟨b.val, hb⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 0 (by simp) _ x0 rfl rfl 0 rfl (ix2 a ⟨b.val, hb⟩)
    (fun d hd => by
      match d with
      | ⟨0, _⟩ => rfl
      | ⟨1, _⟩ => exact absurd rfl hd)
    (by show 0 + b.val = b.val; omega)

/-- … of the second block. -/
theorem cat4_1 (hb : w0 ≤ b.val) (hb' : b.val - w0 < w1) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x1 (ix2 a ⟨b.val - w0, hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 1 (by simp) _ x1 rfl rfl w0 (by simp) (ix2 a ⟨b.val - w0, hb'⟩)
    (fun d hd => by
      match d with
      | ⟨0, _⟩ => rfl
      | ⟨1, _⟩ => exact absurd rfl hd)
    (by show w0 + (b.val - w0) = b.val; omega)

/-- … of the third block. -/
theorem cat4_2 (hb : w0 + w1 ≤ b.val) (hb' : b.val - (w0 + w1) < w2) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x2 (ix2 a ⟨b.val - (w0 + w1), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 2 (by simp) _ x2 rfl rfl (w0 + w1) (by simp) (ix2 a ⟨b.val - (w0 + w1), hb'⟩)
    (fun d hd => by
      match d with
      | ⟨0, _⟩ => rfl
      | ⟨1, _⟩ => exact absurd rfl hd)
    (by show w0 + w1 + (b.val - (w0 + w1)) = b.val; omega)

/-- … of the fourth block. -/
theorem cat4_3 (hb : w0 + w1 + w2 ≤ b.val) (hb' : b.val - (w0 + w1 + w2) < w3) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x3 (ix2 a ⟨b.val - (w0 + w1 + w2), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 3 (by simp) _ x3 rfl rfl (w0 + w1 + w2) (by simp; omega)
    (ix2 a ⟨b.val - (w0 + w1 + w2), hb'⟩)
    (fun d hd => by
      match d with
      | ⟨0, _⟩ => rfl
      | ⟨1, _⟩ => exact absurd rfl hd)
    (by show w0 + w1 + w2 + (b.val - (w0 + w1 + w2)) = b.val; omega)

end Four

/-! ## A plain matrix product as a sum over the contracted coordinate -/

section Dot
variable {A K B : ℕ} {φ₁ φ₂ : FTy}
  (d : DotDims ⟨2, ![A, K]⟩ ⟨2, ![K, B]⟩ ⟨2, ![A, B]⟩)
  (hr : d.contr.rank = 1) (hs : d.contr.size ⟨0, by omega⟩ = K)
  (hlc : d.lhsContracting = [1]) (hrc : d.rhsContracting = [0])
  (hl0 : ∀ j k, (d.lhsIdx j k 0).val = (j 0).val) (hr1 : ∀ j k, (d.rhsIdx j k 1).val = (j 1).val)
  (lhs : FVec Ideal ⟨2, ![A, K]⟩ φ₁) (rhs : FVec Ideal ⟨2, ![K, B]⟩ φ₂) (a : Fin A) (b : Fin B)

include hr hs hlc hrc hl0 hr1 in
/-- The sum over the record's contraction index, re-indexed by the contracted coordinate. -/
theorem contr_sum :
    ∑ k : d.contr.Idx, lhs (d.lhsIdx (ix2 a b) k) * rhs (d.rhsIdx (ix2 a b) k) = ∑ k : Fin K, lhs (ix2 a k) * rhs (ix2 k b) := by
  rw [← Equiv.sum_comp (contrEquiv1 d K hr hs).symm]
  refine Finset.sum_congr rfl fun k _ => ?_
  have e1 : d.lhsIdx (ix2 a b) ((contrEquiv1 d K hr hs).symm k) = ix2 a k := by
    funext c
    apply Fin.ext
    match c with
    | ⟨0, _⟩ => exact hl0 _ _
    | ⟨1, _⟩ => exact (d.lhsIdx_val_of_single hlc _ _).trans (contrEquiv1_symm_val d K hr hs k)
  have e2 : d.rhsIdx (ix2 a b) ((contrEquiv1 d K hr hs).symm k) = ix2 k b := by
    funext c
    apply Fin.ext
    match c with
    | ⟨0, _⟩ => exact (d.rhsIdx_val_of_single hrc _ _).trans (contrEquiv1_symm_val d K hr hs k)
    | ⟨1, _⟩ => exact hr1 _ _
  rw [e1, e2]

include hr hs hlc hrc hl0 hr1 in
/-- The accumulating product into a zero accumulator, at `(a, b)`. -/
theorem matmul_zero_apply (prec : Option ContractPrecision) :
    matmul d prec lhs rhs (constant ⟨2, ![A, B]⟩ .f32 0x00000000#32) (ix2 a b) = ∑ k : Fin K, lhs (ix2 a k) * rhs (ix2 k b) :=
  (Ideal.matmul_constant_zero_apply d prec lhs rhs (ix2 a b)).trans (contr_sum d hr hs hlc hrc hl0 hr1 lhs rhs a b)

include hr hs hlc hrc hl0 hr1 in
/-- The host's product, at `(a, b)`. -/
theorem hostDot_apply (prec : Option ContractPrecision) :
    Host.dotGeneral d prec lhs rhs (ix2 a b) = ∑ k : Fin K, lhs (ix2 a k) * rhs (ix2 k b) :=
  (Ideal.dotGeneral_apply d prec .single lhs rhs (ix2 a b)).trans (contr_sum d hr hs hlc hrc hl0 hr1 lhs rhs a b)

end Dot

end Cert.LibColumnBlocks

end
-- ==== Proof.Body.lean ====
/-
  What one grid point of each dense layer computes, entry by entry, at the extended reals.

  A point holds a block of 5000 rows of the aggregated neighbour features `mean` and of the nodes' own features `root`,
  the two weight matrices whole and the bias whole. Entry `(p, q)` of what it stores is

    (Σ_k mean(p, k) · Wl(k, q)  +  Σ_k root(p, k) · Wr(k, q))  +  b(q),

  clamped below at zero in the first layer. Rounding the operands to bfloat16 on the way into the two products is the
  identity on the extended reals, and each product into a zero accumulator is the plain sum over the contracted coordinate.
-/
import proofs.«119239_j81011673137268_1_alg».proof.Proof.Gen.KernelIdeal.Skeleton
import proofs.«119239_j81011673137268_1_alg».proof.Proof.LibColumnBlocks
import Idealize.ShloMosaic.Lib.ValueLayout
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-! ## The two product records: their non-contracted coordinates -/

theorem d0_l0 (j : S5000x128.Idx) (k : dot_S5000x128_S128x128_S5000x128_1_0_0_1_n_n.contr.Idx) :
    (dot_S5000x128_S128x128_S5000x128_1_0_0_1_n_n.lhsIdx j k 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

theorem d0_r1 (j : S5000x128.Idx) (k : dot_S5000x128_S128x128_S5000x128_1_0_0_1_n_n.contr.Idx) :
    (dot_S5000x128_S128x128_S5000x128_1_0_0_1_n_n.rhsIdx j k 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem d1_l0 (j : S5000x64.Idx) (k : dot_S5000x128_S128x64_S5000x64_1_0_0_1_n_n.contr.Idx) :
    (dot_S5000x128_S128x64_S5000x64_1_0_0_1_n_n.lhsIdx j k 0).val = (j 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl

theorem d1_r1 (j : S5000x64.Idx) (k : dot_S5000x128_S128x64_S5000x64_1_0_0_1_n_n.contr.Idx) :
    (dot_S5000x128_S128x64_S5000x64_1_0_0_1_n_n.rhsIdx j k 1).val = (j 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-! ## The products of a point -/

/-- A product of the first layer at `(p, q)`: the sum over the 128 contracted coordinates. -/
theorem prod0 (lhs : FVec Ideal S5000x128 .bf16) (rhs : FVec Ideal S128x128 .bf16) (p : Fin 5000) (q : Fin 128) :
    matmul (F := Ideal) dot_S5000x128_S128x128_S5000x128_1_0_0_1_n_n none lhs rhs (constant (F := Ideal) S5000x128 .f32 0x00000000#32) (ix2 p q)
      = ∑ k : Fin 128, lhs (ix2 p k) * rhs (ix2 k q) :=
  Cert.LibColumnBlocks.matmul_zero_apply dot_S5000x128_S128x128_S5000x128_1_0_0_1_n_n rfl rfl rfl rfl d0_l0 d0_r1 lhs rhs p q none

/-- A product of the second layer at `(p, q)`. -/
theorem prod1 (lhs : FVec Ideal S5000x128 .bf16) (rhs : FVec Ideal S128x64 .bf16) (p : Fin 5000) (q : Fin 64) :
    matmul (F := Ideal) dot_S5000x128_S128x64_S5000x64_1_0_0_1_n_n none lhs rhs (constant (F := Ideal) S5000x64 .f32 0x00000000#32) (ix2 p q)
      = ∑ k : Fin 128, lhs (ix2 p k) * rhs (ix2 k q) :=
  Cert.LibColumnBlocks.matmul_zero_apply dot_S5000x128_S128x64_S5000x64_1_0_0_1_n_n rfl rfl rfl rfl d1_l0 d1_r1 lhs rhs p q none

/-! ## The stored values -/

/-- The first layer's stored value at `(p, q)`. -/
theorem pay0_apply (x0 x1 : Vec Ideal S5000x128 .f32) (x2 x4 : Vec Ideal S128x128 .f32) (x3 : Vec Ideal S128 .f32)
    (p : Fin 5000) (q : Fin 128) :
    k0_pay1 (F := Ideal) x0 x1 x2 x4 x3 (ix2 p q)
      = max (((∑ k : Fin 128, x0 (ix2 p k) * x2 (ix2 k q)) + (∑ k : Fin 128, x1 (ix2 p k) * x4 (ix2 k q))) + x3 (ix1 q)) 0 := by
  unfold k0_pay1
  show max ((matmul (F := Ideal) dot_S5000x128_S128x128_S5000x128_1_0_0_1_n_n none _ _ (constant (F := Ideal) S5000x128 .f32 0x00000000#32) (ix2 p q)
      + matmul (F := Ideal) dot_S5000x128_S128x128_S5000x128_1_0_0_1_n_n none _ _ (constant (F := Ideal) S5000x128 .f32 0x00000000#32) (ix2 p q))
      + broadcastTo S5000x128 (shapeCast S1x128 x3 shapeCasts_S128_S1x128) broadcasts_S1x128_S5000x128 (ix2 p q))
      (Ideal.ofBits .f32 0x00000000#32) = _
  refine congrArg₂ max (congrArg₂ (· + ·) (congrArg₂ (· + ·) ?_ ?_) ?_) Ideal.ofBits_zero_f32
  · exact (prod0 _ _ p q).trans (Finset.sum_congr rfl fun k _ => by rw [shapeCast_self]; rfl)
  · exact prod0 _ _ p q
  · exact (broadcastTo_1b_ab_apply _ broadcasts_S1x128_S5000x128 p q).trans (shapeCast_a_1a_apply x3 shapeCasts_S128_S1x128 0 q)

/-- The second layer's stored value at `(p, q)`. -/
theorem pay1_apply (x0 x1 : Vec Ideal S5000x128 .f32) (x2 x4 : Vec Ideal S128x64 .f32) (x3 : Vec Ideal S64 .f32)
    (p : Fin 5000) (q : Fin 64) :
    k1_pay1 (F := Ideal) x0 x1 x2 x4 x3 (ix2 p q)
      = ((∑ k : Fin 128, x0 (ix2 p k) * x2 (ix2 k q)) + (∑ k : Fin 128, x1 (ix2 p k) * x4 (ix2 k q))) + x3 (ix1 q) := by
  unfold k1_pay1
  show (matmul (F := Ideal) dot_S5000x128_S128x64_S5000x64_1_0_0_1_n_n none _ _ (constant (F := Ideal) S5000x64 .f32 0x00000000#32) (ix2 p q)
      + matmul (F := Ideal) dot_S5000x128_S128x64_S5000x64_1_0_0_1_n_n none _ _ (constant (F := Ideal) S5000x64 .f32 0x00000000#32) (ix2 p q))
      + broadcastTo S5000x64 (shapeCast S1x64 x3 shapeCasts_S64_S1x64) broadcasts_S1x64_S5000x64 (ix2 p q) = _
  refine congrArg₂ (· + ·) (congrArg₂ (· + ·) ?_ ?_) ?_
  · exact (prod1 _ _ p q).trans (Finset.sum_congr rfl fun k _ => by rw [shapeCast_self]; rfl)
  · exact (prod1 _ _ p q).trans (Finset.sum_congr rfl fun k _ => by rw [shapeCast_self]; rfl)
  · exact (broadcastTo_1b_ab_apply _ broadcasts_S1x64_S5000x64 p q).trans (shapeCast_a_1a_apply x3 shapeCasts_S64_S1x64 0 q)

end Cert.KernelIdeal.Body

end
-- ==== Proof.Layer.lean ====
/-
  One dense layer of the mean-aggregating graph convolution, entry by entry, on the extended reals.

  For 50000 nodes with 128 input features and `B` output features, entry `(r, j)` of the layer is

    (Σ_k mean(r, k) · Wl(k, j)  +  Σ_k root(r, k) · Wr(k, j))  +  b(j),

  the neighbours' product, the node's own product and the bias added in that order. Addition of extended reals is
  commutative and associative, so the bias may as well be added before the node's own product.
-/
import Idealize.ShloMosaic.PureOps.Ideal.Laws
import Idealize.ShloMosaic.Lib.ValueIdx

noncomputable section

namespace Cert.Layer

open Idealize.ShloMosaic Idealize.ShloMosaic.ValueIdx

/-- Entry `(r, j)` of a dense layer. -/
def layerAt {B : ℕ} (mean root : (⟨2, ![50000, 128]⟩ : Shape).Idx → EReal) (Wl Wr : (⟨2, ![128, B]⟩ : Shape).Idx → EReal)
    (b : (⟨1, ![B]⟩ : Shape).Idx → EReal) (r : Fin 50000) (j : Fin B) : EReal :=
  ((∑ k : Fin 128, mean (ix2 r k) * Wl (ix2 k j)) + (∑ k : Fin 128, root (ix2 r k) * Wr (ix2 k j))) + b (ix1 j)

/-- The layer as an array. -/
def layer {B : ℕ} (mean root : (⟨2, ![50000, 128]⟩ : Shape).Idx → EReal) (Wl Wr : (⟨2, ![128, B]⟩ : Shape).Idx → EReal)
    (b : (⟨1, ![B]⟩ : Shape).Idx → EReal) : (⟨2, ![50000, B]⟩ : Shape).Idx → EReal :=
  fun i => layerAt mean root Wl Wr b (i 0) (i 1)

/-- The layer clamped below at zero, as an array. -/
def layerRelu {B : ℕ} (mean root : (⟨2, ![50000, 128]⟩ : Shape).Idx → EReal) (Wl Wr : (⟨2, ![128, B]⟩ : Shape).Idx → EReal)
    (b : (⟨1, ![B]⟩ : Shape).Idx → EReal) : (⟨2, ![50000, B]⟩ : Shape).Idx → EReal :=
  fun i => max (layerAt mean root Wl Wr b (i 0) (i 1)) 0

/-- The bias added before the node's own product. -/
theorem layerAt_bias_first {B : ℕ} (mean root : (⟨2, ![50000, 128]⟩ : Shape).Idx → EReal) (Wl Wr : (⟨2, ![128, B]⟩ : Shape).Idx → EReal)
    (b : (⟨1, ![B]⟩ : Shape).Idx → EReal) (r : Fin 50000) (j : Fin B) :
    layerAt mean root Wl Wr b r j
      = ((∑ k : Fin 128, mean (ix2 r k) * Wl (ix2 k j)) + b (ix1 j)) + (∑ k : Fin 128, root (ix2 r k) * Wr (ix2 k j)) :=
  add_right_comm _ _ _

end Cert.Layer

end
-- ==== Proof.Region.lean ====
/-
  What each pallas_call leaves in its output array, as one function of the arrays it finds on entry.

  A pallas_call runs ten grid points. Point `t` is handed rows `5000·t … 5000·t + 4999` of the aggregated features and of
  the nodes' own features, and the weights and the bias whole; it writes back rows `5000·t … 5000·t + 4999` of the output.
  What it writes is those rows of the dense layer of the whole arrays: an entry of the layer depends on one row of each
  feature array only, and that row is in the point's block. The ten row blocks tile the 50000 rows (row `r` is in block
  `r / 5000`), so the output array ends holding the layer of the entry arrays, whatever those are.
-/
import proofs.«119239_j81011673137268_1_alg».proof.Proof.Gen.KernelIdeal.Frame
import proofs.«119239_j81011673137268_1_alg».proof.Proof.Body
import proofs.«119239_j81011673137268_1_alg».proof.Proof.Layer
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region

open Cert.KernelIdeal Cert.KernelIdeal.Gen Cert.Layer

theorem hz2 : (![0, 0] : Fin 2 → Nat) = fun _ => 0 := funext fun a => by fin_cases a <;> rfl
theorem hz1 : (![0] : Fin 1 → Nat) = fun _ => 0 := funext fun a => by fin_cases a <;> rfl

/-! ## One point, over variables -/

/-- First layer: what a point stores at `y` is the clamped layer of the whole arrays at the index `i` that `y` sits at,
    when the point's feature blocks are rows `5000·T …` of the whole arrays and its weights and bias are the whole ones. -/
theorem point0 (mean root : S50000x128.Idx → EReal) (Wl Wr : S128x128.Idx → EReal) (b : S128.Idx → EReal)
    (x0 x1 : Vec Ideal S5000x128 .f32) (x2 x4 : Vec Ideal S128x128 .f32) (x3 : Vec Ideal S128 .f32) (T : ℕ)
    (h0 : ∀ (y : S5000x128.Idx) (i : S50000x128.Idx), (i 0).val = T * 5000 + (y 0).val → (i 1).val = (y 1).val → x0 y = mean i)
    (h1 : ∀ (y : S5000x128.Idx) (i : S50000x128.Idx), (i 0).val = T * 5000 + (y 0).val → (i 1).val = (y 1).val → x1 y = root i)
    (h2 : x2 = Wl) (h4 : x4 = Wr) (h3 : x3 = b)
    (y : S5000x128.Idx) (i : S50000x128.Idx) (hi0 : (i 0).val = T * 5000 + (y 0).val) (hi1 : (i 1).val = (y 1).val) :
    k0_pay1 (F := Ideal) x0 x1 x2 x4 x3 y = layerRelu mean root Wl Wr b i := by
  subst h2 h4 h3
  obtain ⟨p, q, rfl⟩ : ∃ (p : Fin 5000) (q : Fin 128), y = ix2 p q := ⟨y 0, y 1, eq_ix2 y⟩
  obtain ⟨r, s, rfl⟩ : ∃ (r : Fin 50000) (s : Fin 128), i = ix2 r s := ⟨i 0, i 1, eq_ix2 i⟩
  have hs : s = q := Fin.ext hi1
  subst hs
  refine (Body.pay0_apply x0 x1 x2 x4 x3 p s).trans ?_
  show _ = max (layerAt mean root x2 x4 x3 r s) 0
  unfold layerAt
  refine congrArg (max · 0) (congrArg₂ (· + ·) (congrArg₂ (· + ·) (Finset.sum_congr rfl fun k _ => ?_) (Finset.sum_congr rfl fun k _ => ?_)) rfl)
  · exact congrArg (· * x2 (ix2 k s)) (h0 (ix2 p k) (ix2 r k) hi0 rfl)
  · exact congrArg (· * x4 (ix2 k s)) (h1 (ix2 p k) (ix2 r k) hi0 rfl)

/-- Second layer: the same without the clamp, into 64 output features. -/
theorem point1 (mean root : S50000x128.Idx → EReal) (Wl Wr : S128x64.Idx → EReal) (b : S64.Idx → EReal)
    (x0 x1 : Vec Ideal S5000x128 .f32) (x2 x4 : Vec Ideal S128x64 .f32) (x3 : Vec Ideal S64 .f32) (T : ℕ)
    (h0 : ∀ (y : S5000x128.Idx) (i : S50000x128.Idx), (i 0).val = T * 5000 + (y 0).val → (i 1).val = (y 1).val → x0 y = mean i)
    (h1 : ∀ (y : S5000x128.Idx) (i : S50000x128.Idx), (i 0).val = T * 5000 + (y 0).val → (i 1).val = (y 1).val → x1 y = root i)
    (h2 : x2 = Wl) (h4 : x4 = Wr) (h3 : x3 = b)
    (y : S5000x64.Idx) (i : S50000x64.Idx) (hi0 : (i 0).val = T * 5000 + (y 0).val) (hi1 : (i 1).val = (y 1).val) :
    k1_pay1 (F := Ideal) x0 x1 x2 x4 x3 y = layer mean root Wl Wr b i := by
  subst h2 h4 h3
  obtain ⟨p, q, rfl⟩ : ∃ (p : Fin 5000) (q : Fin 64), y = ix2 p q := ⟨y 0, y 1, eq_ix2 y⟩
  obtain ⟨r, s, rfl⟩ : ∃ (r : Fin 50000) (s : Fin 64), i = ix2 r s := ⟨i 0, i 1, eq_ix2 i⟩
  have hs : s = q := Fin.ext hi1
  subst hs
  refine (Body.pay1_apply x0 x1 x2 x4 x3 p s).trans ?_
  show _ = layerAt mean root x2 x4 x3 r s
  unfold layerAt
  refine congrArg₂ (· + ·) (congrArg₂ (· + ·) (Finset.sum_congr rfl fun k _ => ?_) (Finset.sum_congr rfl fun k _ => ?_)) rfl
  · exact congrArg (· * x2 (ix2 k s)) (h0 (ix2 p k) (ix2 r k) hi0 rfl)
  · exact congrArg (· * x4 (ix2 k s)) (h1 (ix2 p k) (ix2 r k) hi0 rfl)

variable (V : (c : Dev nD) → (b : Ref sig .tc) → Buf (Elt Ideal) ((c : Thread nD τ).loc b))

/-! ## The first pallas_call -/

/-- Where each window's block sits at point `t`: the feature windows and the output at row block `t`, the weights and
    the bias at their one block. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The first layer of the arrays the first pallas_call finds. -/
def G0 (c : Dev nD) : S50000x128.Idx → EReal :=
  layerRelu (V c main_v24) (V c main_arg0) (V c main_arg2) (V c main_arg4) (V c main_arg3)

/-- What point `t` writes back is block `t` of `G0`. -/
theorem flushed_eq0 (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero hz2]
  simp only [View.ld_unit_zero (S := S5000x128) hz2, View.ld_unit_zero (S := S128x128) hz2, View.ld_unit_zero (S := S128) hz1]
  obtain ⟨e00, e01, e10, e11, e20, e21, e30, e40, e41, e50, e51⟩ := idx_facts0 t
  funext j
  show k0_pay1 (F := Ideal) (iblk0 V c 0 t) (iblk0 V c 1 t) (iblk0 V c 2 t) (iblk0 V c 4 t) (iblk0 V c 3 t) j
    = G0 V c (((cfg0.win 5).blk t).view.emb j)
  unfold G0
  refine point0 (V c main_v24) (V c main_arg0) (V c main_arg2) (V c main_arg4) (V c main_arg3) _ _ _ _ _ t.val ?_ ?_ ?_ ?_ ?_ j _ ?_ ?_
  · intro y i hy0 hy1
    unfold iblk0
    rw [View.read_apply]
    show V c main_v24 _ = V c main_v24 i
    refine congrArg _ (funext fun a => Fin.ext ?_)
    match a with
    | ⟨0, _⟩ => show win0_0.index t (0 : Fin 2) * 5000 + 1 * (y 0).val = (i 0).val; rw [e00, hy0]; omega
    | ⟨1, _⟩ => show win0_0.index t (1 : Fin 2) * 128 + 1 * (y 1).val = (i 1).val; rw [e01, hy1]; omega
  · intro y i hy0 hy1
    unfold iblk0
    rw [View.read_apply]
    show V c main_arg0 _ = V c main_arg0 i
    refine congrArg _ (funext fun a => Fin.ext ?_)
    match a with
    | ⟨0, _⟩ => show win0_1.index t (0 : Fin 2) * 5000 + 1 * (y 0).val = (i 0).val; rw [e10, hy0]; omega
    | ⟨1, _⟩ => show win0_1.index t (1 : Fin 2) * 128 + 1 * (y 1).val = (i 1).val; rw [e11, hy1]; omega
  · funext y
    unfold iblk0
    rw [View.read_apply]
    show V c main_arg2 _ = V c main_arg2 y
    refine congrArg _ (funext fun a => Fin.ext ?_)
    match a with
    | ⟨0, _⟩ => show win0_2.index t (0 : Fin 2) * 128 + 1 * (y 0).val = (y 0).val; rw [e20]; omega
    | ⟨1, _⟩ => show win0_2.index t (1 : Fin 2) * 128 + 1 * (y 1).val = (y 1).val; rw [e21]; omega
  · funext y
    unfold iblk0
    rw [View.read_apply]
    show V c main_arg4 _ = V c main_arg4 y
    refine congrArg _ (funext fun a => Fin.ext ?_)
    match a with
    | ⟨0, _⟩ => show win0_4.index t (0 : Fin 2) * 128 + 1 * (y 0).val = (y 0).val; rw [e40]; omega
    | ⟨1, _⟩ => show win0_4.index t (1 : Fin 2) * 128 + 1 * (y 1).val = (y 1).val; rw [e41]; omega
  · funext y
    unfold iblk0
    rw [View.read_apply]
    show V c main_arg3 _ = V c main_arg3 y
    refine congrArg _ (funext fun a => Fin.ext ?_)
    match a with
    | ⟨0, _⟩ => show win0_3.index t (0 : Fin 1) * 128 + 1 * (y 0).val = (y 0).val; rw [e30]; omega
  · show win0_5.index t (0 : Fin 2) * 5000 + 1 * (j 0).val = t.val * 5000 + (j 0).val; rw [e50]; omega
  · show win0_5.index t (1 : Fin 2) * 128 + 1 * (j 1).val = (j 1).val; rw [e51]; omega

/-- Row `r` of the output is in the block of point `r / 5000`. -/
theorem cover0 (i : S50000x128.Idx) :
    ∃ t : Fin cfg0.N, (cfg0.win 5).flush t = true ∧ i ∈ ((cfg0.win 5).blk t).view.set := by
  have hN : grid0.N = 10 := N_0
  have hi0 : (i 0).val < 50000 := (i 0).isLt
  have hi1 : (i 1).val < 128 := (i 1).isLt
  let t : Fin cfg0.N := ⟨(i 0).val / 5000, by show (i 0).val / 5000 < grid0.N; rw [hN]; omega⟩
  obtain ⟨e00, e01, e10, e11, e20, e21, e30, e40, e41, e50, e51⟩ := idx_facts0 t
  refine ⟨t, flush0_5 t, ?_⟩
  show i ∈ ((View.whole main_v25).slice (win0_5.rect t)).set
  rw [View.set_slice_whole, Rect.mem_set_unit]
  intro a
  match a with
  | ⟨0, _⟩ =>
    show win0_5.index t (0 : Fin 2) * 5000 ≤ (i 0).val ∧ (i 0).val < win0_5.index t (0 : Fin 2) * 5000 + 5000
    rw [e50]; show (i 0).val / 5000 * 5000 ≤ (i 0).val ∧ (i 0).val < (i 0).val / 5000 * 5000 + 5000; omega
  | ⟨1, _⟩ =>
    show win0_5.index t (1 : Fin 2) * 128 ≤ (i 1).val ∧ (i 1).val < win0_5.index t (1 : Fin 2) * 128 + 128
    rw [e51]; omega

/-- The first pallas_call's output array ends holding the first layer of the arrays it found. -/
theorem final0 (c : Dev nD) : (dat0 V c).arrAt 5 cfg0.N = G0 V c :=
  (dat0 V c).arrAt_eq_of_cover 5 (G0 V c) (fun t _ => flushed_eq0 V c t) (cover0)

/-! ## The second pallas_call -/

theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The second layer of the arrays the second pallas_call finds. -/
def G1 (c : Dev nD) : S50000x64.Idx → EReal :=
  layer (V c main_v38) (V c main_v25) (V c main_arg5) (V c main_arg7) (V c main_arg6)

/-- What point `t` writes back is block `t` of `G1`. -/
theorem flushed_eq1 (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero hz2]
  simp only [View.ld_unit_zero (S := S5000x128) hz2, View.ld_unit_zero (S := S128x64) hz2, View.ld_unit_zero (S := S64) hz1]
  obtain ⟨e00, e01, e10, e11, e20, e21, e30, e40, e41, e50, e51⟩ := idx_facts1 t
  funext j
  show k1_pay1 (F := Ideal) (iblk1 V c 0 t) (iblk1 V c 1 t) (iblk1 V c 2 t) (iblk1 V c 4 t) (iblk1 V c 3 t) j
    = G1 V c (((cfg1.win 5).blk t).view.emb j)
  unfold G1
  refine point1 (V c main_v38) (V c main_v25) (V c main_arg5) (V c main_arg7) (V c main_arg6) _ _ _ _ _ t.val ?_ ?_ ?_ ?_ ?_ j _ ?_ ?_
  · intro y i hy0 hy1
    unfold iblk1
    rw [View.read_apply]
    show V c main_v38 _ = V c main_v38 i
    refine congrArg _ (funext fun a => Fin.ext ?_)
    match a with
    | ⟨0, _⟩ => show win1_0.index t (0 : Fin 2) * 5000 + 1 * (y 0).val = (i 0).val; rw [e00, hy0]; omega
    | ⟨1, _⟩ => show win1_0.index t (1 : Fin 2) * 128 + 1 * (y 1).val = (i 1).val; rw [e01, hy1]; omega
  · intro y i hy0 hy1
    unfold iblk1
    rw [View.read_apply]
    show V c main_v25 _ = V c main_v25 i
    refine congrArg _ (funext fun a => Fin.ext ?_)
    match a with
    | ⟨0, _⟩ => show win1_1.index t (0 : Fin 2) * 5000 + 1 * (y 0).val = (i 0).val; rw [e10, hy0]; omega
    | ⟨1, _⟩ => show win1_1.index t (1 : Fin 2) * 128 + 1 * (y 1).val = (i 1).val; rw [e11, hy1]; omega
  · funext y
    unfold iblk1
    rw [View.read_apply]
    show V c main_arg5 _ = V c main_arg5 y
    refine congrArg _ (funext fun a => Fin.ext ?_)
    match a with
    | ⟨0, _⟩ => show win1_2.index t (0 : Fin 2) * 128 + 1 * (y 0).val = (y 0).val; rw [e20]; omega
    | ⟨1, _⟩ => show win1_2.index t (1 : Fin 2) * 64 + 1 * (y 1).val = (y 1).val; rw [e21]; omega
  · funext y
    unfold iblk1
    rw [View.read_apply]
    show V c main_arg7 _ = V c main_arg7 y
    refine congrArg _ (funext fun a => Fin.ext ?_)
    match a with
    | ⟨0, _⟩ => show win1_4.index t (0 : Fin 2) * 128 + 1 * (y 0).val = (y 0).val; rw [e40]; omega
    | ⟨1, _⟩ => show win1_4.index t (1 : Fin 2) * 64 + 1 * (y 1).val = (y 1).val; rw [e41]; omega
  · funext y
    unfold iblk1
    rw [View.read_apply]
    show V c main_arg6 _ = V c main_arg6 y
    refine congrArg _ (funext fun a => Fin.ext ?_)
    match a with
    | ⟨0, _⟩ => show win1_3.index t (0 : Fin 1) * 64 + 1 * (y 0).val = (y 0).val; rw [e30]; omega
  · show win1_5.index t (0 : Fin 2) * 5000 + 1 * (j 0).val = t.val * 5000 + (j 0).val; rw [e50]; omega
  · show win1_5.index t (1 : Fin 2) * 64 + 1 * (j 1).val = (j 1).val; rw [e51]; omega

/-- Row `r` of the output is in the block of point `r / 5000`. -/
theorem cover1 (i : S50000x64.Idx) :
    ∃ t : Fin cfg1.N, (cfg1.win 5).flush t = true ∧ i ∈ ((cfg1.win 5).blk t).view.set := by
  have hN : grid1.N = 10 := N_1
  have hi0 : (i 0).val < 50000 := (i 0).isLt
  have hi1 : (i 1).val < 64 := (i 1).isLt
  let t : Fin cfg1.N := ⟨(i 0).val / 5000, by show (i 0).val / 5000 < grid1.N; rw [hN]; omega⟩
  obtain ⟨e00, e01, e10, e11, e20, e21, e30, e40, e41, e50, e51⟩ := idx_facts1 t
  refine ⟨t, flush1_5 t, ?_⟩
  show i ∈ ((View.whole main_v39).slice (win1_5.rect t)).set
  rw [View.set_slice_whole, Rect.mem_set_unit]
  intro a
  match a with
  | ⟨0, _⟩ =>
    show win1_5.index t (0 : Fin 2) * 5000 ≤ (i 0).val ∧ (i 0).val < win1_5.index t (0 : Fin 2) * 5000 + 5000
    rw [e50]; show (i 0).val / 5000 * 5000 ≤ (i 0).val ∧ (i 0).val < (i 0).val / 5000 * 5000 + 5000; omega
  | ⟨1, _⟩ =>
    show win1_5.index t (1 : Fin 2) * 64 ≤ (i 1).val ∧ (i 1).val < win1_5.index t (1 : Fin 2) * 64 + 64
    rw [e51]; omega

/-- The second pallas_call's output array ends holding the second layer of the arrays it found. -/
theorem final1 (c : Dev nD) : (dat1 V c).arrAt 5 cfg1.N = G1 V c :=
  (dat1 V c).arrAt_eq_of_cover 5 (G1 V c) (fun t _ => flushed_eq1 V c t) (cover1)

end Cert.KernelIdeal.Region

end
-- ==== Proof.LibRowScale.lean ====
/-
  Scaling the rows of a matrix by a per-row factor, at the extended reals.

  A vector of per-row factors `v : [A]` is stretched along the rows of an `[A, B]` matrix in two host steps, `[A] → [A, 1]`
  (dims 0) and `[A, 1] → [A, B]` (dims 0, 1); read at `(a, b)` the result is `v a`. With the factor `1 / max (c a) 1`,
  multiplying the matrix by the stretched factor is dividing it by the stretched `max (c a) 1`: the divisor is at least one,
  so it is not zero, and a quotient by a non-zero extended real is the product with its inverse — for every extended real
  numerator and every extended real `c a`, infinite ones included. The float word `0x3F800000` denotes the real one.
-/
import Idealize.ShloMosaic.PureOps.Ideal.Laws
import Idealize.ShloMosaic.Lib.ValueIdx
import Idealize.ShloMosaic.Lib.Pipeline.Value

noncomputable section

namespace Cert.LibRowScale

open Idealize.ShloMosaic Idealize.ShloMosaic.ValueIdx

/-- The float word of `1.0` denotes the real one. -/
theorem one_word : Ideal.ofBits .f32 0x3F800000#32 = 1 := by
  simp [Ideal.ofBits, Ideal.ieee, -EReal.coe_mul]; norm_num

/-- `max c 1` is not zero, whatever `c`. -/
theorem max_one_ne_zero (c : EReal) : max c 1 ≠ 0 :=
  ne_of_gt (lt_of_lt_of_le (by exact_mod_cast (zero_lt_one : (0 : ℝ) < 1)) (le_max_right c 1))

/-- `a · (1 / max c 1) = a / max c 1` on the extended reals. -/
theorem mul_recip (a c : EReal) : a * Ideal.div 1 (max c 1) = Ideal.div a (max c 1) := by
  rw [Ideal.div, Ideal.div, if_neg (max_one_ne_zero c), if_neg (max_one_ne_zero c), one_mul]

variable {α : Type}

/-- `[A]` laid into `[A, 1]` (dims 0), at `(a, z)`: the operand at `a`. -/
theorem hb_a_a1 {A : ℕ} (h : (⟨1, ![A]⟩ : Shape).BroadcastsInDim ⟨2, ![A, 1]⟩ ![0])
    (x : (⟨1, ![A]⟩ : Shape).Idx → α) (a : Fin A) (z : Fin 1) :
    broadcastInDim ⟨2, ![A, 1]⟩ ![0] h x (ix2 a z) = x (ix1 a) := by
  refine broadcastInDim_apply _ h x _ _ fun d => ?_
  match d with
  | ⟨0, _⟩ =>
    show a.val = if A = 1 then 0 else a.val
    split_ifs with hA
    · have := a.isLt; omega
    · rfl

/-- `[A, 1]` stretched to `[A, B]` (dims 0, 1), at `(a, b)`: the operand at `(a, 0)`. -/
theorem hb_a1_ab {A B : ℕ} (h : (⟨2, ![A, 1]⟩ : Shape).BroadcastsInDim ⟨2, ![A, B]⟩ ![0, 1])
    (x : (⟨2, ![A, 1]⟩ : Shape).Idx → α) (a : Fin A) (b : Fin B) :
    broadcastInDim ⟨2, ![A, B]⟩ ![0, 1] h x (ix2 a b) = x (ix2 a 0) := by
  refine broadcastInDim_apply _ h x _ _ fun d => ?_
  match d with
  | ⟨0, _⟩ =>
    show a.val = if A = 1 then 0 else a.val
    split_ifs with hA
    · have := a.isLt; omega
    · rfl
  | ⟨1, _⟩ => rfl

/-- A per-row factor stretched along the rows, at `(a, b)`: the factor of row `a`. -/
theorem rowStretch_apply {A B : ℕ} (h1 : (⟨1, ![A]⟩ : Shape).BroadcastsInDim ⟨2, ![A, 1]⟩ ![0])
    (h2 : (⟨2, ![A, 1]⟩ : Shape).BroadcastsInDim ⟨2, ![A, B]⟩ ![0, 1])
    (v : (⟨1, ![A]⟩ : Shape).Idx → α) (a : Fin A) (b : Fin B) :
    broadcastInDim ⟨2, ![A, B]⟩ ![0, 1] h2 (broadcastInDim ⟨2, ![A, 1]⟩ ![0] h1 v) (ix2 a b) = v (ix1 a) :=
  (hb_a1_ab h2 _ a b).trans (hb_a_a1 h1 v a 0)

/-- A scalar broadcast to any shape, at any index: the scalar. -/
theorem hb_scalar {t : Shape} (h : (⟨0, ![]⟩ : Shape).BroadcastsInDim t ![])
    (x : (⟨0, ![]⟩ : Shape).Idx → α) (j : t.Idx) :
    broadcastInDim t ![] h x j = x ix0 :=
  broadcastInDim_apply _ h x _ _ fun d => d.elim0

/-- The matrix times the stretched `1 / max c 1` is the matrix divided by the stretched `max c 1`, the ones being
    the float word of `1.0` broadcast. -/
theorem mul_stretched_recip {A B : ℕ} (h0 : (⟨0, ![]⟩ : Shape).BroadcastsInDim ⟨1, ![A]⟩ ![])
    (h1 : (⟨1, ![A]⟩ : Shape).BroadcastsInDim ⟨2, ![A, 1]⟩ ![0])
    (h2 : (⟨2, ![A, 1]⟩ : Shape).BroadcastsInDim ⟨2, ![A, B]⟩ ![0, 1])
    (M : FVec Ideal ⟨2, ![A, B]⟩ .f32) (c : FVec Ideal ⟨1, ![A]⟩ .f32) :
    mulf M (broadcastInDim ⟨2, ![A, B]⟩ ![0, 1] h2 (broadcastInDim ⟨2, ![A, 1]⟩ ![0] h1
        (Host.divf (broadcastInDim ⟨1, ![A]⟩ ![] h0 (constant (F := Ideal) ⟨0, ![]⟩ .f32 0x3F800000#32))
          (maximumf c (broadcastInDim ⟨1, ![A]⟩ ![] h0 (constant (F := Ideal) ⟨0, ![]⟩ .f32 0x3F800000#32))))))
      = Host.divf M (broadcastInDim ⟨2, ![A, B]⟩ ![0, 1] h2 (broadcastInDim ⟨2, ![A, 1]⟩ ![0] h1
          (maximumf c (broadcastInDim ⟨1, ![A]⟩ ![] h0 (constant (F := Ideal) ⟨0, ![]⟩ .f32 0x3F800000#32))))) := by
  funext i
  obtain ⟨a, b, rfl⟩ : ∃ (a : Fin A) (b : Fin B), i = ix2 a b := ⟨i 0, i 1, eq_ix2 i⟩
  have e1 : ∀ j : (⟨1, ![A]⟩ : Shape).Idx,
      broadcastInDim ⟨1, ![A]⟩ ![] h0 (constant (F := Ideal) ⟨0, ![]⟩ .f32 0x3F800000#32) j = (1 : EReal) :=
    fun j => (hb_scalar h0 _ j).trans one_word
  show M (ix2 a b) * _ = Ideal.div (M (ix2 a b)) _
  rw [rowStretch_apply h1 h2 _ a b, rowStretch_apply h1 h2 _ a b]
  show M (ix2 a b) * Ideal.div _ (max (c (ix1 a)) _) = Ideal.div (M (ix2 a b)) (max (c (ix1 a)) _)
  rw [e1]
  exact mul_recip _ _

end Cert.LibRowScale

end
-- ==== Proof.Sage.lean ====
/-
  The two-layer mean-aggregating graph convolution as one function of its arguments, on the extended reals.

  The edge list `e : [2, 800000]` gives each edge a source node (row 0) and a target node (row 1). Aggregating node
  features `feat : [50000, 128]` gathers, for every edge, the source node's row (negative indices wrapped once by the
  number of nodes), and adds the gathered rows into the rows of the target nodes; `cnt : [50000]` adds a one per edge into
  its target node. The MEAN of the neighbours' features divides row `r` of the aggregate by `max (cnt r) 1`. One way to
  compute it is that quotient; another multiplies row `r` by the factor `1 / max (cnt r) 1` computed once. The two agree
  at every extended real: the divisor is at least one. Nothing here looks inside the gather or the scatter-add: both ways
  apply the same two operations to the same operands.

  A network is two dense layers, the first clamped at zero, each fed the mean of its input and the input itself.
  Everything is stated over a bundle `R` of the dimension records and shape facts the operations take.
-/
import Idealize.ShloMosaic.PureOps.Ideal.Laws
import Idealize.ShloMosaic.Lib.ValueIdx
import proofs.«119239_j81011673137268_1_alg».proof.Proof.LibRowScale
import proofs.«119239_j81011673137268_1_alg».proof.Proof.Layer

noncomputable section

namespace Cert.Sage

open Idealize.ShloMosaic Cert.Layer

abbrev SX : Shape := ⟨2, ![50000, 128]⟩
abbrev SE2 : Shape := ⟨2, ![2, 800000]⟩
abbrev SE1 : Shape := ⟨2, ![1, 800000]⟩
abbrev SE : Shape := ⟨1, ![800000]⟩
abbrev SEc : Shape := ⟨2, ![800000, 1]⟩
abbrev SM : Shape := ⟨2, ![800000, 128]⟩
abbrev SN : Shape := ⟨1, ![50000]⟩
abbrev SNc : Shape := ⟨2, ![50000, 1]⟩
abbrev S0 : Shape := ⟨0, ![]⟩

/-- The dimension records of the gather and of the two scatter-adds, and the shape facts of the layout operations. -/
structure Recs where
  scF : ScatterDims SX SEc SM
  scC : ScatterDims SN SEc SE
  ga : GatherDims SX SEc SM
  hs0 : SE2.Slices ![0, 0] SE1
  hs1 : SE2.Slices ![1, 0] SE1
  hc : SE1.ShapeCasts SE
  hbE : S0.BroadcastsInDim SE (![] : Fin 0 → Fin SE.rank)
  hbN : S0.BroadcastsInDim SN (![] : Fin 0 → Fin SN.rank)
  hbX : S0.BroadcastsInDim SX (![] : Fin 0 → Fin SX.rank)
  hbI : SE.BroadcastsInDim SEc (![0] : Fin 1 → Fin SEc.rank)
  hb1 : SN.BroadcastsInDim SNc (![0] : Fin 1 → Fin SNc.rank)
  hb2 : SNc.BroadcastsInDim SX (![0, 1] : Fin 2 → Fin SX.rank)

variable (R : Recs)

/-- The edges' source nodes. -/
def src (e : IVec SE2 32) : IVec SE 32 := shapeCast SE (extractStridedSlice SE1 ![0, 0] e R.hs0) R.hc
/-- The edges' target nodes. -/
def dst (e : IVec SE2 32) : IVec SE 32 := shapeCast SE (extractStridedSlice SE1 ![1, 0] e R.hs1) R.hc
/-- A negative node index wrapped once by the number of nodes. -/
def wrap (s : IVec SE 32) : IVec SE 32 :=
  select (cmpi .slt s (broadcastInDim SE ![] R.hbE (constantI S0 32 0#32))) (addi s (broadcastInDim SE ![] R.hbE (constantI S0 32 50000#32))) s
/-- A vector of node indices as a column of index vectors. -/
def col (s : IVec SE 32) : IVec SEc 32 := broadcastInDim SEc ![0] R.hbI s
/-- The aggregate: the source nodes' rows added into the target nodes' rows. -/
def agg (feat : FVec Ideal SX .f32) (s d : IVec SE 32) : FVec Ideal SX .f32 :=
  Host.scatterAdd R.scF (broadcastInDim SX ![] R.hbX (constant (F := Ideal) S0 .f32 0x00000000#32)) (col R d)
    (Host.gather R.ga feat (col R (wrap R s)))
/-- The vector of ones over the nodes. -/
def ones : FVec Ideal SN .f32 := broadcastInDim SN ![] R.hbN (constant (F := Ideal) S0 .f32 0x3F800000#32)
/-- The number of edges into each node. -/
def cnt (d : IVec SE 32) : FVec Ideal SN .f32 :=
  Host.scatterAdd R.scC (broadcastInDim SN ![] R.hbN (constant (F := Ideal) S0 .f32 0x00000000#32)) (col R d)
    (broadcastInDim SE ![] R.hbE (constant (F := Ideal) S0 .f32 0x3F800000#32))
/-- A per-node factor stretched along the rows of the feature matrix. -/
def rows (v : FVec Ideal SN .f32) : FVec Ideal SX .f32 :=
  broadcastInDim SX ![0, 1] R.hb2 (broadcastInDim SNc ![0] R.hb1 v)
/-- The per-node factor `1 / max cnt 1`. -/
def recip (d : IVec SE 32) : FVec Ideal SN .f32 := Host.divf (ones R) (maximumf (cnt R d) (ones R))

/-- The mean by the factor computed once: the aggregate times the stretched factor. -/
def meanMul (feat : FVec Ideal SX .f32) (e : IVec SE2 32) : FVec Ideal SX .f32 :=
  mulf (agg R feat (src R e) (dst R e)) (rows R (recip R (dst R e)))
/-- The mean by the quotient: the aggregate divided by the stretched `max cnt 1`. -/
def meanDiv (feat : FVec Ideal SX .f32) (e : IVec SE2 32) : FVec Ideal SX .f32 :=
  Host.divf (agg R feat (src R e) (dst R e)) (rows R (maximumf (cnt R (dst R e)) (ones R)))

/-- The two means are one function. -/
theorem meanMul_eq_meanDiv (feat : FVec Ideal SX .f32) (e : IVec SE2 32) : meanMul R feat e = meanDiv R feat e :=
  Cert.LibRowScale.mul_stretched_recip R.hbN R.hb1 R.hb2 (agg R feat (src R e) (dst R e)) (cnt R (dst R e))

/-- The network over a way `mean` of averaging the neighbours. -/
def net (mean : FVec Ideal SX .f32 → FVec Ideal SX .f32) (x : FVec Ideal SX .f32)
    (W1l W1r : (⟨2, ![128, 128]⟩ : Shape).Idx → EReal) (b1 : (⟨1, ![128]⟩ : Shape).Idx → EReal)
    (W2l W2r : (⟨2, ![128, 64]⟩ : Shape).Idx → EReal) (b2 : (⟨1, ![64]⟩ : Shape).Idx → EReal) :
    (⟨2, ![50000, 64]⟩ : Shape).Idx → EReal :=
  layer (mean (layerRelu (mean x) x W1l W1r b1)) (layerRelu (mean x) x W1l W1r b1) W2l W2r b2

/-- The network computed with either mean is the same array. -/
theorem net_meanMul_eq (e : IVec SE2 32) (x : FVec Ideal SX .f32)
    (W1l W1r : (⟨2, ![128, 128]⟩ : Shape).Idx → EReal) (b1 : (⟨1, ![128]⟩ : Shape).Idx → EReal)
    (W2l W2r : (⟨2, ![128, 64]⟩ : Shape).Idx → EReal) (b2 : (⟨1, ![64]⟩ : Shape).Idx → EReal) :
    net (fun f => meanMul R f e) x W1l W1r b1 W2l W2r b2 = net (fun f => meanDiv R f e) x W1l W1r b1 W2l W2r b2 :=
  congrArg (fun mean => net mean x W1l W1r b1 W2l W2r b2) (funext fun f => meanMul_eq_meanDiv R f e)

end Cert.Sage

end
-- ==== Proof.KernelHost.lean ====
/-
  The idealized kernel's result as the network of its arguments.

  Reading the program's boundaries back to front: the result buffer is the second pallas_call's output array, the second
  dense layer of the arrays that call finds; those are the mean of the hidden features (by the factor computed once),
  the hidden features themselves and the second layer's parameters. The hidden features are the first pallas_call's
  output array: the first dense layer, clamped at zero, of the mean of the input features, the input features and the
  first layer's parameters. The host operations between the calls read the edge list's two rows and the per-node factor
  that the operations before the first call computed; no pallas_call writes those buffers.
-/
import proofs.«119239_j81011673137268_1_alg».proof.Proof.KernelRun
import proofs.«119239_j81011673137268_1_alg».proof.Proof.Region
import proofs.«119239_j81011673137268_1_alg».proof.Proof.Sage
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Glue

open Cert.KernelIdeal Cert.KernelIdeal.Gen Cert.KernelIdeal.Facts₀ Cert.Sage Cert.Layer

/-- The kernel program's dimension records and shape facts. -/
def RK : Cert.Sage.Recs where
  scF := scatter_S50000x128_S800000x1_S800000x128_1_0_0_1
  scC := scatter_S50000_S800000x1_S800000_n_0_0_1
  ga := gather_S50000x128_S800000x1_S800000x128_1_0_n_n_0_1_1128
  hs0 := Facts₀.slices_S2x800000_S1x800000_0_0
  hs1 := Facts₀.slices_S2x800000_S1x800000_1_0
  hc := Facts₀.shapeCasts_S1x800000_S800000
  hbE := Facts₀.bcast_S_S800000
  hbN := Facts₀.bcast_S_S50000
  hbX := Facts₀.bcast_S_S50000x128
  hbI := Facts₀.bcast_S800000_S800000x1_0
  hb1 := Facts₀.bcast_S50000_S50000x1_0
  hb2 := Facts₀.bcast_S50000x1_S50000x128_0_1

variable (m : (ℓ : Loc nD τ sig) → Buf (Elt Ideal) ℓ) (ρ : Dev nD → PrngReg) (c : Dev nD)

/-! ## The two host stretches, from any contents -/

section Stretches
variable (U : Valuation τ sig (Elt Ideal))

theorem ops0_v1 : StableHlo.after hostOps0 U (Proc.devRef .tc main_v1) = src RK (U (Proc.devRef .tc main_arg1)) := by
  after_results_simp <;> rfl

theorem ops0_v3 : StableHlo.after hostOps0 U (Proc.devRef .tc main_v3) = dst RK (U (Proc.devRef .tc main_arg1)) := by
  after_results_simp <;> rfl

theorem ops0_v11 : StableHlo.after hostOps0 U (Proc.devRef .tc main_v11) = recip RK (dst RK (U (Proc.devRef .tc main_arg1))) := by
  after_results_simp <;> rfl

theorem ops0_v24 : StableHlo.after hostOps0 U (Proc.devRef .tc main_v24)
    = meanMul RK (U (Proc.devRef .tc main_arg0)) (U (Proc.devRef .tc main_arg1)) := by
  after_results_simp <;> rfl

theorem ops0_arg (b : Ref sig .tc) (hb : b = main_arg0 ∨ b = main_arg2 ∨ b = main_arg3 ∨ b = main_arg4 ∨ b = main_arg5 ∨ b = main_arg6 ∨ b = main_arg7) :
    StableHlo.after hostOps0 U (Proc.devRef .tc b) = U (Proc.devRef .tc b) := by
  rcases hb with rfl | rfl | rfl | rfl | rfl | rfl | rfl <;> (after_results_simp <;> rfl)

theorem ops1_v38 : StableHlo.after hostOps1 U (Proc.devRef .tc main_v38)
    = mulf (agg RK (U (Proc.devRef .tc main_v25)) (U (Proc.devRef .tc main_v1)) (U (Proc.devRef .tc main_v3)))
        (rows RK (U (Proc.devRef .tc main_v11))) := by
  after_results_simp <;> rfl

theorem ops1_keep (b : Ref sig .tc) (hb : b = main_v25 ∨ b = main_arg5 ∨ b = main_arg6 ∨ b = main_arg7) :
    StableHlo.after hostOps1 U (Proc.devRef .tc b) = U (Proc.devRef .tc b) := by
  rcases hb with rfl | rfl | rfl | rfl <;> (after_results_simp <;> rfl)

end Stretches

/-! ## Before the first pallas_call -/

theorem w1_v1 : W1 m ρ c (Proc.devRef .tc main_v1) = src RK (m ((c.tc : Thread nD τ).loc main_arg1)) :=
  ops0_v1 (W0 m ρ c)
theorem w1_v3 : W1 m ρ c (Proc.devRef .tc main_v3) = dst RK (m ((c.tc : Thread nD τ).loc main_arg1)) :=
  ops0_v3 (W0 m ρ c)
theorem w1_v11 : W1 m ρ c (Proc.devRef .tc main_v11) = recip RK (dst RK (m ((c.tc : Thread nD τ).loc main_arg1))) :=
  ops0_v11 (W0 m ρ c)
theorem w1_v24 : W1 m ρ c (Proc.devRef .tc main_v24)
    = meanMul RK (m ((c.tc : Thread nD τ).loc main_arg0)) (m ((c.tc : Thread nD τ).loc main_arg1)) :=
  ops0_v24 (W0 m ρ c)
theorem w1_arg (b : Ref sig .tc) (hb : b = main_arg0 ∨ b = main_arg2 ∨ b = main_arg3 ∨ b = main_arg4 ∨ b = main_arg5 ∨ b = main_arg6 ∨ b = main_arg7) :
    W1 m ρ c (Proc.devRef .tc b) = m ((c.tc : Thread nD τ).loc b) :=
  ops0_arg (W0 m ρ c) b hb

/-! ## The first pallas_call's output: the hidden features -/

/-- The hidden features: the first layer, clamped at zero, of the mean of the input features and the input features. -/
def hidden : FVec Ideal SX .f32 :=
  layerRelu (meanMul RK (m ((c.tc : Thread nD τ).loc main_arg0)) (m ((c.tc : Thread nD τ).loc main_arg1)))
    (m ((c.tc : Thread nD τ).loc main_arg0)) (m ((c.tc : Thread nD τ).loc main_arg2)) (m ((c.tc : Thread nD τ).loc main_arg4))
    (m ((c.tc : Thread nD τ).loc main_arg3))

theorem w2_v25 : W2 m ρ c (Proc.devRef .tc main_v25) = hidden m c := by
  refine (W2_arr m ρ c 5).trans ((Region.final0 (V1 m ρ) c).trans ?_)
  unfold Region.G0 hidden
  show layerRelu (W1 m ρ c (Proc.devRef .tc main_v24)) (W1 m ρ c (Proc.devRef .tc main_arg0)) (W1 m ρ c (Proc.devRef .tc main_arg2))
    (W1 m ρ c (Proc.devRef .tc main_arg4)) (W1 m ρ c (Proc.devRef .tc main_arg3)) = _
  rw [w1_v24 m ρ c, w1_arg m ρ c main_arg0 (by simp), w1_arg m ρ c main_arg2 (by simp), w1_arg m ρ c main_arg4 (by simp),
    w1_arg m ρ c main_arg3 (by simp)]

/-- The buffers the operations before the first call computed are untouched by the call. -/
theorem w2_v1 : W2 m ρ c (Proc.devRef .tc main_v1) = src RK (m ((c.tc : Thread nD τ).loc main_arg1)) :=
  (W2_of_ne m ρ c main_v1 (by decide)).trans (w1_v1 m ρ c)
theorem w2_v3 : W2 m ρ c (Proc.devRef .tc main_v3) = dst RK (m ((c.tc : Thread nD τ).loc main_arg1)) :=
  (W2_of_ne m ρ c main_v3 (by decide)).trans (w1_v3 m ρ c)
theorem w2_v11 : W2 m ρ c (Proc.devRef .tc main_v11) = recip RK (dst RK (m ((c.tc : Thread nD τ).loc main_arg1))) :=
  (W2_of_ne m ρ c main_v11 (by decide)).trans (w1_v11 m ρ c)
theorem w2_arg5 : W2 m ρ c (Proc.devRef .tc main_arg5) = m ((c.tc : Thread nD τ).loc main_arg5) :=
  (W2_of_ne m ρ c main_arg5 (by decide)).trans (w1_arg m ρ c main_arg5 (by simp))
theorem w2_arg6 : W2 m ρ c (Proc.devRef .tc main_arg6) = m ((c.tc : Thread nD τ).loc main_arg6) :=
  (W2_of_ne m ρ c main_arg6 (by decide)).trans (w1_arg m ρ c main_arg6 (by simp))
theorem w2_arg7 : W2 m ρ c (Proc.devRef .tc main_arg7) = m ((c.tc : Thread nD τ).loc main_arg7) :=
  (W2_of_ne m ρ c main_arg7 (by decide)).trans (w1_arg m ρ c main_arg7 (by simp))

/-! ## Between the calls -/

theorem w3_v38 : W3 m ρ c (Proc.devRef .tc main_v38)
    = mulf (agg RK (W2 m ρ c (Proc.devRef .tc main_v25)) (W2 m ρ c (Proc.devRef .tc main_v1)) (W2 m ρ c (Proc.devRef .tc main_v3)))
        (rows RK (W2 m ρ c (Proc.devRef .tc main_v11))) :=
  ops1_v38 (W2 m ρ c)

theorem w3_keep (b : Ref sig .tc) (hb : b = main_v25 ∨ b = main_arg5 ∨ b = main_arg6 ∨ b = main_arg7) :
    W3 m ρ c (Proc.devRef .tc b) = W2 m ρ c (Proc.devRef .tc b) :=
  ops1_keep (W2 m ρ c) b hb

theorem w3_v38' : W3 m ρ c (Proc.devRef .tc main_v38) = meanMul RK (hidden m c) (m ((c.tc : Thread nD τ).loc main_arg1)) := by
  rw [w3_v38, w2_v25, w2_v1, w2_v3, w2_v11]
  rfl

/-! ## The result -/

/-- The kernel's result array is the network of its arguments, the mean taken by the factor computed once. -/
theorem value : W4 m ρ c (Proc.devRef .tc main_v39)
    = net (fun f => meanMul RK f (m ((c.tc : Thread nD τ).loc main_arg1))) (m ((c.tc : Thread nD τ).loc main_arg0))
        (m ((c.tc : Thread nD τ).loc main_arg2)) (m ((c.tc : Thread nD τ).loc main_arg4)) (m ((c.tc : Thread nD τ).loc main_arg3))
        (m ((c.tc : Thread nD τ).loc main_arg5)) (m ((c.tc : Thread nD τ).loc main_arg7)) (m ((c.tc : Thread nD τ).loc main_arg6)) := by
  refine (RunValue.result_eq m ρ c).trans ((Region.final1 (V3 m ρ) c).trans ?_)
  unfold Region.G1
  show layer (W3 m ρ c (Proc.devRef .tc main_v38)) (W3 m ρ c (Proc.devRef .tc main_v25)) (W3 m ρ c (Proc.devRef .tc main_arg5))
    (W3 m ρ c (Proc.devRef .tc main_arg7)) (W3 m ρ c (Proc.devRef .tc main_arg6)) = _
  rw [w3_v38' m ρ c, w3_keep m ρ c main_v25 (by simp), w3_keep m ρ c main_arg5 (by simp), w3_keep m ρ c main_arg7 (by simp),
    w3_keep m ρ c main_arg6 (by simp), w2_v25 m ρ c, w2_arg5 m ρ c, w2_arg7 m ρ c, w2_arg6 m ρ c]
  rfl

end Cert.KernelIdeal.Glue

end
-- ==== Proof.RefValue.lean ====
/-
  The idealized reference's result as the network of its arguments.

  The reference's operations, read one at a time: the mean of the neighbours' features is the aggregate divided by the
  stretched `max cnt 1`; a dense layer is the product with the mean, plus the bias, plus the product with the node's own
  features — at an entry, three extended reals added, the bias second; the first layer is clamped at zero. Both layers
  are the layer function of their operands (the bias moved last: addition is commutative and associative).
-/
import proofs.«119239_j81011673137268_1_alg».proof.Proof.Gen.ReferenceIdeal.Read
import proofs.«119239_j81011673137268_1_alg».proof.Proof.Sage

noncomputable section

open Idealize.ShloMosaic Idealize.ShloMosaic.ValueIdx

namespace Cert.ReferenceIdeal.RefValue

open Cert.ReferenceIdeal Cert.ReferenceIdeal.Gen Cert.ReferenceIdeal.Read Cert.ReferenceIdeal.Facts₀ Cert.Sage Cert.Layer

/-- The reference program's dimension records and shape facts. -/
def RR : Cert.Sage.Recs where
  scF := scatter_S50000x128_S800000x1_S800000x128_1_0_0_1
  scC := scatter_S50000_S800000x1_S800000_n_0_0_1
  ga := gather_S50000x128_S800000x1_S800000x128_1_0_n_n_0_1_1128
  hs0 := Facts₀.slices_S2x800000_S1x800000_0_0
  hs1 := Facts₀.slices_S2x800000_S1x800000_1_0
  hc := Facts₀.shapeCasts_S1x800000_S800000
  hbE := Facts₀.bcast_S_S800000
  hbN := Facts₀.bcast_S_S50000
  hbX := Facts₀.bcast_S_S50000x128
  hbI := Facts₀.bcast_S800000_S800000x1_0
  hb1 := Facts₀.bcast_S50000_S50000x1_0
  hb2 := Facts₀.bcast_S50000x1_S50000x128_0_1

variable (x0 : FVec Ideal SX .f32) (x1 : IVec SE2 32)
  (x2 x4 : (⟨2, ![128, 128]⟩ : Shape).Idx → EReal) (x3 : (⟨1, ![128]⟩ : Shape).Idx → EReal)
  (x5 x7 : (⟨2, ![128, 64]⟩ : Shape).Idx → EReal) (x6 : (⟨1, ![64]⟩ : Shape).Idx → EReal)

/-! ## The means -/

/-- The first layer's mean is the quotient form of the mean of the input features. -/
theorem mean1 : val_main_v22 (F := Ideal) x0 x1 = meanDiv RR x0 x1 := rfl

/-- The second layer's mean is the quotient form of the mean of the hidden features. -/
theorem mean2 : val_main_v48 (F := Ideal) x0 x1 x2 x3 x4 = meanDiv RR (val_main_v29 (F := Ideal) x0 x1 x2 x3 x4) x1 := rfl

/-! ## Where the products and the bias are read -/

theorem l23 (r : Fin 50000) (j k : Fin 128) : lidx_main_v23 (ix2 r j) k = ix2 r k :=
  funext fun a => Fin.ext (by match a with | ⟨0, _⟩ => rfl | ⟨1, _⟩ => rfl)
theorem r23 (r : Fin 50000) (j k : Fin 128) : ridx_main_v23 (ix2 r j) k = ix2 k j :=
  funext fun a => Fin.ext (by match a with | ⟨0, _⟩ => rfl | ⟨1, _⟩ => rfl)
theorem l27 (r : Fin 50000) (j k : Fin 128) : lidx_main_v27 (ix2 r j) k = ix2 r k :=
  funext fun a => Fin.ext (by match a with | ⟨0, _⟩ => rfl | ⟨1, _⟩ => rfl)
theorem r27 (r : Fin 50000) (j k : Fin 128) : ridx_main_v27 (ix2 r j) k = ix2 k j :=
  funext fun a => Fin.ext (by match a with | ⟨0, _⟩ => rfl | ⟨1, _⟩ => rfl)
theorem b25 (r : Fin 50000) (j : Fin 128) : idx_main_v24 (idx_main_v25 (ix2 r j)) = ix1 j :=
  funext fun a => Fin.ext (by match a with | ⟨0, _⟩ => rfl)
theorem l49 (r : Fin 50000) (j : Fin 64) (k : Fin 128) : lidx_main_v49 (ix2 r j) k = ix2 r k :=
  funext fun a => Fin.ext (by match a with | ⟨0, _⟩ => rfl | ⟨1, _⟩ => rfl)
theorem r49 (r : Fin 50000) (j : Fin 64) (k : Fin 128) : ridx_main_v49 (ix2 r j) k = ix2 k j :=
  funext fun a => Fin.ext (by match a with | ⟨0, _⟩ => rfl | ⟨1, _⟩ => rfl)
theorem l53 (r : Fin 50000) (j : Fin 64) (k : Fin 128) : lidx_main_v53 (ix2 r j) k = ix2 r k :=
  funext fun a => Fin.ext (by match a with | ⟨0, _⟩ => rfl | ⟨1, _⟩ => rfl)
theorem r53 (r : Fin 50000) (j : Fin 64) (k : Fin 128) : ridx_main_v53 (ix2 r j) k = ix2 k j :=
  funext fun a => Fin.ext (by match a with | ⟨0, _⟩ => rfl | ⟨1, _⟩ => rfl)
theorem b51 (r : Fin 50000) (j : Fin 64) : idx_main_v50 (idx_main_v51 (ix2 r j)) = ix1 j :=
  funext fun a => Fin.ext (by match a with | ⟨0, _⟩ => rfl)

/-! ## The layers -/

/-- The hidden features are the first layer, clamped at zero, of the first mean and the input features. -/
theorem hidden_eq : val_main_v29 (F := Ideal) x0 x1 x2 x3 x4 = layerRelu (val_main_v22 (F := Ideal) x0 x1) x0 x2 x4 x3 := by
  funext i
  obtain ⟨r, j, rfl⟩ : ∃ (r : Fin 50000) (j : Fin 128), i = ix2 r j := ⟨i 0, i 1, eq_ix2 i⟩
  rw [val_main_v29_apply, val_main_v28_apply, val_main_v26_apply, val_main_v23_apply, val_main_v27_apply, val_main_v25_apply,
    val_main_v24_apply, val_main_call0_v0_apply, val_main_call0_cst_apply]
  simp only [l23, r23, l27, r27, b25]
  show max _ (Ideal.ofBits .f32 0x00000000#32) = max (layerAt (val_main_v22 (F := Ideal) x0 x1) x0 x2 x4 x3 r j) 0
  rw [layerAt_bias_first, Ideal.ofBits_zero_f32]
  rfl

/-- The result is the second layer of the second mean and the hidden features. -/
theorem out_eq : val_main_v54 (F := Ideal) x0 x1 x2 x3 x4 x5 x6 x7
    = layer (val_main_v48 (F := Ideal) x0 x1 x2 x3 x4) (val_main_v29 (F := Ideal) x0 x1 x2 x3 x4) x5 x7 x6 := by
  funext i
  obtain ⟨r, j, rfl⟩ : ∃ (r : Fin 50000) (j : Fin 64), i = ix2 r j := ⟨i 0, i 1, eq_ix2 i⟩
  rw [val_main_v54_apply, val_main_v52_apply, val_main_v49_apply, val_main_v53_apply, val_main_v51_apply, val_main_v50_apply]
  simp only [l49, r49, l53, r53, b51]
  show _ = layerAt (val_main_v48 (F := Ideal) x0 x1 x2 x3 x4) (val_main_v29 (F := Ideal) x0 x1 x2 x3 x4) x5 x7 x6 r j
  rw [layerAt_bias_first]
  rfl

/-- The reference's result array is the network of its arguments, the mean taken by the quotient. -/
theorem value : val_main_v54 (F := Ideal) x0 x1 x2 x3 x4 x5 x6 x7 = net (fun f => meanDiv RR f x1) x0 x2 x4 x3 x5 x7 x6 := by
  rw [out_eq, mean2, hidden_eq, mean1]
  rfl

end Cert.ReferenceIdeal.RefValue

end
-- ==== Proof.lean ====
/-
  The two-layer mean-aggregating graph convolution: the Pallas kernel against its jnp reference, on the extended reals.

  Both programs gather, for every edge, the features of the edge's source node and add them into the edge's target node;
  both count the edges into each node. The reference divides each node's aggregate by `max count 1`; the kernel multiplies
  it by `1 / max count 1`, computed once. A dense layer then adds the product with the mean, the product with the node's own
  features and a bias; the kernel adds the bias last and runs the layer block by block over ten row blocks, rounding the
  operands of its products to bfloat16; the reference adds the bias second and runs whole products. The first layer is
  clamped at zero, and the second layer repeats the aggregation on the first layer's result.

  On the extended reals a change of float format is the identity and a product into a zero accumulator is the plain sum
  over the contracted coordinate, so every entry of the kernel's result is the same sums of the same products as the
  reference's. Two laws join the sides: `a · (1 / c) = a / c` for `c = max count 1`, which is not zero whatever the count
  (it holds for every extended real `a`, so no finiteness of the inputs is used), and the commutativity and associativity of
  addition for the order of the three terms of a layer. The gather and the scatter-add are never opened: both programs apply
  them to the same operands.

  The kernel's run is read off its frame: the buffer contents at the boundaries of the two host stretches and the two
  pallas_calls (KernelRun), each call's output array as one function of the arrays it finds (Body, Region), and the host
  stretches between them (KernelHost). The reference's run and its operations read at an index are imported; RefValue
  composes them. The idealization rewrote nothing, so `preserves` has nothing to state.
-/
import proofs.«119239_j81011673137268_1_alg».proof.Defs
import proofs.«119239_j81011673137268_1_alg».proof.Proof.Gen.Kernel
import proofs.«119239_j81011673137268_1_alg».proof.Proof.Gen.Kernel.Skeleton
import proofs.«119239_j81011673137268_1_alg».proof.Proof.Gen.Kernel.Launch
import proofs.«119239_j81011673137268_1_alg».proof.Proof.Gen.Kernel.Points
import proofs.«119239_j81011673137268_1_alg».proof.Proof.Gen.Kernel.Frame
import proofs.«119239_j81011673137268_1_alg».proof.Proof.Gen.KernelIdeal
import proofs.«119239_j81011673137268_1_alg».proof.Proof.Gen.KernelIdeal.Skeleton
import proofs.«119239_j81011673137268_1_alg».proof.Proof.Gen.KernelIdeal.Launch
import proofs.«119239_j81011673137268_1_alg».proof.Proof.Gen.KernelIdeal.Points
import proofs.«119239_j81011673137268_1_alg».proof.Proof.Gen.KernelIdeal.Frame
import proofs.«119239_j81011673137268_1_alg».proof.Proof.Gen.ReferenceIdeal
import proofs.«119239_j81011673137268_1_alg».proof.Proof.Gen.Pre_finite_inputs
import proofs.«119239_j81011673137268_1_alg».proof.Proof.Gen.ReferenceIdeal.Run
import proofs.«119239_j81011673137268_1_alg».proof.Proof.Gen.ReferenceIdeal.Read
import proofs.«119239_j81011673137268_1_alg».proof.Proof.LibRunBoth
import proofs.«119239_j81011673137268_1_alg».proof.Proof.KernelRun
import proofs.«119239_j81011673137268_1_alg».proof.Proof.KernelHost
import proofs.«119239_j81011673137268_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_k : Cert.frame_Kernel := fun m ρ _ => Cert.Kernel.Gen.frame m ρ

/-- The idealized kernel runs and leaves its arguments as launched. -/
theorem frame_ki : Cert.frame_KernelIdeal := fun m ρ _ => Cert.KernelIdeal.Gen.frame m ρ

/-- The idealized reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The dimension records and shape facts of the two programs are the same records. -/
theorem recs_eq : Cert.ReferenceIdeal.RefValue.RR = Cert.KernelIdeal.Glue.RK := rfl

/-- From memories that agree on the arguments both idealized programs end with the network of those arguments in their
    result arrays: the kernel with the mean taken by the factor computed once, the reference with the quotient. -/
theorem algebraic : Cert.algebraic_KernelIdeal_ReferenceIdeal := by
  intro m ρ m' ρ' _ hagree
  refine ⟨fun c => Cert.KernelIdeal.Gen.W4 m ρ c (Proc.devRef .tc Cert.KernelIdeal.main_v39), ?_, ?_⟩
  · exact (θ_run Cert.KernelIdeal.defs _ _).mono (fun _ h c => ⟨h.1 c, h.2 c⟩)
      (θ_run_both _ _ _ _ _ (Cert.KernelIdeal.RunValue.run_result (F := Ideal) m ρ) (Cert.KernelIdeal.Gen.frame (F := Ideal) m ρ))
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7⟩ := hagree c
    rw [Cert.ReferenceIdeal.Read.val_main_v54_eq, e0, e1, e2, e3, e4, e5, e6, e7, Cert.ReferenceIdeal.RefValue.value, recs_eq]
    exact ((Cert.KernelIdeal.Glue.value m ρ c).trans (Cert.Sage.net_meanMul_eq _ _ _ _ _ _ _ _ _)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
